-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S256x512 .f32) (main_arg3 : FVec F S512 .f32) (main_arg4 : FVec F S512x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S10000x512 : Shape := ⟨2, ![10000, 512]⟩
abbrev S1000x256 : Shape := ⟨2, ![1000, 256]⟩
abbrev S1000x512 : Shape := ⟨2, ![1000, 512]⟩
abbrev S_ : Shape := ⟨0, ![]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S1x512 : Shape := ⟨2, ![1, 512]⟩
abbrev S320000x256 : Shape := ⟨2, ![320000, 256]⟩
abbrev S1x256 : Shape := ⟨2, ![1, 256]⟩

abbrev nBuf : Space → Nat
  | .hbm => 141
  | .vmem => 10
  | .smem => 0
  | _ => 0

abbrev hbmTy0_0 (i : Nat) : BufTy := match i % 128 with
  | 0 => ⟨S10000x256, .f32⟩
  | 1 => ⟨S2x320000, .i32⟩
  | 2 => ⟨S256x512, .f32⟩
  | 3 => ⟨S512, .f32⟩
  | 4 => ⟨S512x256, .f32⟩
  | 5 => ⟨S256, .f32⟩
  | 6 => ⟨S1x320000, .i32⟩
  | 7 => ⟨S320000, .i32⟩
  | 8 => ⟨S1x320000, .i32⟩
  | 9 => ⟨S320000, .i32⟩
  | 10 => ⟨S10000x512, .f32⟩
  | 11 => ⟨S_, .f32⟩
  | 12 => ⟨S10000, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S_, .f32⟩
  | 22 => ⟨S320000, .f32⟩
  | 23 => ⟨S10000, .f32⟩
  | 24 => ⟨S_, .f32⟩
  | 25 => ⟨S10000, .f32⟩
  | 26 => ⟨S10000, .f32⟩
  | 27 => ⟨S10000, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000, .f32⟩
  | 46 => ⟨S320000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x512, .f32⟩
  | 56 => ⟨S320000x1, .f32⟩
  | 57 => ⟨S320000x512, .f32⟩
  | 58 => ⟨S320000x512, .f32⟩
  | 59 => ⟨S_, .f32⟩
  | 60 => ⟨S10000x512, .f32⟩
  | 61 => ⟨S320000x1, .i32⟩
  | 62 => ⟨S10000x512, .f32⟩
  | 63 => ⟨S10000, .f32⟩
  | 64 => ⟨S10000x1, .f32⟩
  | 65 => ⟨S10000x512, .f32⟩
  | 66 => ⟨S10000x512, .f32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x256, .f32⟩
  | 75 => ⟨S_, .f32⟩
  | 76 => ⟨S10000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S_, .f32⟩
  | 86 => ⟨S320000, .f32⟩
  | 87 => ⟨S10000, .f32⟩
  | 88 => ⟨S_, .f32⟩
  | 89 => ⟨S10000, .f32⟩
  | 90 => ⟨S10000, .f32⟩
  | 91 => ⟨S10000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000, .f32⟩
  | 110 => ⟨S320000, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S320000x1, .f32⟩
  | 121 => ⟨S320000x256, .f32⟩
  | 122 => ⟨S320000x256, .f32⟩
  | 123 => ⟨S_, .f32⟩
  | 124 => ⟨S10000x256, .f32⟩
  | 125 => ⟨S320000x1, .i32⟩
  | 126 => ⟨S10000x256, .f32⟩
  | 127 => ⟨S10000, .f32⟩
  | _ => ⟨S10000x256, .f32⟩

abbrev hbmTy0_1 (i : Nat) : BufTy := match i % 128 with
  | 0 => ⟨S10000x1, .f32⟩
  | 1 => ⟨S10000x256, .f32⟩
  | 2 => ⟨S10000x256, .f32⟩
  | 3 => ⟨S10000x256, .f32⟩
  | 4 => ⟨S1x256, .f32⟩
  | 5 => ⟨S10000x256, .f32⟩
  | 6 => ⟨S10000x256, .f32⟩
  | 7 => ⟨S_, .f32⟩
  | 8 => ⟨S10000x256, .f32⟩
  | 9 => ⟨S10000x256, .f32⟩
  | 10 => ⟨S_, .f32⟩
  | 11 => ⟨S256, .f32⟩
  | 12 => ⟨S1x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1000x512_S1000x512_0_0 : ∀ a, (![0, 0] : Fin 2 → Nat) a + S1000x512.size a ≤ S1000x512.size a
  h_S1000x512 : 0 < S1000x512.numel
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  dot_S1000x256_S256x512_S1000x512_1_0_0_1_n_n_wf : DotDims.WF S1000x256 S256x512 S1000x512 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S1000x512_S512x256_S1000x256_1_0_0_1_n_n_wf : DotDims.WF S1000x512 S512x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)

variable [Facts₀]

def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S10000x512 : Shape := ⟨2, ![10000, 512]⟩
abbrev S_ : Shape := ⟨0, ![]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S1x512 : Shape := ⟨2, ![1, 512]⟩
abbrev S320000x256 : Shape := ⟨2, ![320000, 256]⟩
abbrev S1x256 : Shape := ⟨2, ![1, 256]⟩

abbrev nBuf : Space → Nat
  | .hbm => 141
  | .vmem => 0
  | .smem => 0
  | _ => 0

abbrev hbmTy0_0 (i : Nat) : BufTy := match i % 128 with
  | 0 => ⟨S10000x256, .f32⟩
  | 1 => ⟨S2x320000, .i32⟩
  | 2 => ⟨S256x512, .f32⟩
  | 3 => ⟨S512, .f32⟩
  | 4 => ⟨S512x256, .f32⟩
  | 5 => ⟨S256, .f32⟩
  | 6 => ⟨S1x320000, .i32⟩
  | 7 => ⟨S320000, .i32⟩
  | 8 => ⟨S1x320000, .i32⟩
  | 9 => ⟨S320000, .i32⟩
  | 10 => ⟨S10000x512, .f32⟩
  | 11 => ⟨S_, .f32⟩
  | 12 => ⟨S10000, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S_, .f32⟩
  | 22 => ⟨S320000, .f32⟩
  | 23 => ⟨S10000, .f32⟩
  | 24 => ⟨S_, .f32⟩
  | 25 => ⟨S10000, .f32⟩
  | 26 => ⟨S10000, .f32⟩
  | 27 => ⟨S10000, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000, .f32⟩
  | 46 => ⟨S320000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x512, .f32⟩
  | 56 => ⟨S320000x1, .f32⟩
  | 57 => ⟨S320000x512, .f32⟩
  | 58 => ⟨S320000x512, .f32⟩
  | 59 => ⟨S_, .f32⟩
  | 60 => ⟨S10000x512, .f32⟩
  | 61 => ⟨S320000x1, .i32⟩
  | 62 => ⟨S10000x512, .f32⟩
  | 63 => ⟨S10000, .f32⟩
  | 64 => ⟨S10000x1, .f32⟩
  | 65 => ⟨S10000x512, .f32⟩
  | 66 => ⟨S10000x512, .f32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x256, .f32⟩
  | 75 => ⟨S_, .f32⟩
  | 76 => ⟨S10000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S_, .f32⟩
  | 86 => ⟨S320000, .f32⟩
  | 87 => ⟨S10000, .f32⟩
  | 88 => ⟨S_, .f32⟩
  | 89 => ⟨S10000, .f32⟩
  | 90 => ⟨S10000, .f32⟩
  | 91 => ⟨S10000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000, .f32⟩
  | 110 => ⟨S320000, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S320000x1, .f32⟩
  | 121 => ⟨S320000x256, .f32⟩
  | 122 => ⟨S320000x256, .f32⟩
  | 123 => ⟨S_, .f32⟩
  | 124 => ⟨S10000x256, .f32⟩
  | 125 => ⟨S320000x1, .i32⟩
  | 126 => ⟨S10000x256, .f32⟩
  | 127 => ⟨S10000, .f32⟩
  | _ => ⟨S10000x256, .f32⟩

abbrev hbmTy0_1 (i : Nat) : BufTy := match i % 128 with
  | 0 => ⟨S10000x1, .f32⟩
  | 1 => ⟨S10000x256, .f32⟩
  | 2 => ⟨S10000x256, .f32⟩
  | 3 => ⟨S10000x256, .f32⟩
  | 4 => ⟨S1x256, .f32⟩
  | 5 => ⟨S10000x256, .f32⟩
  | 6 => ⟨S10000x256, .f32⟩
  | 7 => ⟨S_, .f32⟩
  | 8 => ⟨S10000x256, .f32⟩
  | 9 => ⟨S10000x256, .f32⟩
  | 10 => ⟨S_, .f32⟩
  | 11 => ⟨S256, .f32⟩
  | 12 => ⟨S1x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  dot_S10000x256_S256x512_S10000x512_1_0_0_1_n_n_wf : DotDims.WF S10000x256 S256x512 S10000x512 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.KernelRun.lean ====
/-
  The idealized kernel program's run, with its result named.

  @main is eight segments: a stretch of host operations, the first matrix-product region, two stretches, the
  second region, three stretches. The buffer contents at each boundary are a fold from the launch memory, and after
  the last stretch every unscoped buffer holds the last boundary's contents. So every weakly fair execution
  terminates with the result buffer at the last boundary's value of it, and with the six arguments as launched.
-/
import proofs.«161514_j31190052503646_1_alg».proof.Proof.Gen.KernelIdeal.Frame

set_option maxRecDepth 16384

noncomputable section

namespace Cert.KernelIdeal.Ran

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and each argument array as launched. -/
theorem run : θ_run defs (onTc (τ := τ) (main (F := F))) ⟨m, fun _ => 0, ρ⟩ (fun r => ∀ c : Dev nD,
      r.2.mem ((c.tc : Thread nD τ).loc main_v105) = W8 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v105 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Ran

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.MatmulEntry.lean ====
/-
  The two matrix-product bodies, read at one entry over the extended reals.

  Each body loads a block of rows of the left operand and the whole right operand, rounds both to the
  narrower float format, multiplies them into a zero accumulator and stores the product. Over the extended
  reals the change of format is the identity and the zero accumulator is the neutral element of the sum, so the
  stored value's entry (p, q) is the plain sum over the contracted coordinate k of left (p, k) · right (k, q).
  The second body first re-casts its left block to its own shape, which changes nothing.
-/
import proofs.«161514_j31190052503646_1_alg».proof.Proof.Gen.KernelIdeal.Skeleton
import proofs.«161514_j31190052503646_1_alg».proof.Proof.LibContractPlain
import Idealize.ShloMosaic.Lib.Pipeline.Value
import Idealize.ShloMosaic.Lib.ValueIdx
import Idealize.ShloMosaic.PureOps.Ideal.Laws

noncomputable section

open scoped BigOperators

namespace Cert.KernelIdeal.MatEntry

open Idealize.ShloMosaic Idealize.ShloMosaic.ValueIdx Cert.KernelIdeal Cert.KernelIdeal.Gen

/-- First layer's body: a 1000 × 256 block of rows times the 256 × 512 weights, at entry (p, q). -/
theorem body0_entry (x : Vec Ideal S1000x256 .f32) (w : Vec Ideal S256x512 .f32) (p : Fin 1000) (q : Fin 512) :
    k0_pay1 (F := Ideal) x w (ix2 p q) = ∑ k : Fin 256, (x (ix2 p k) : EReal) * (w (ix2 k q) : EReal) := by
  unfold k0_pay1
  exact Cert.LibContractPlain.matmulPlain_zero_apply 1000 256 512
    dot_S1000x256_S256x512_S1000x512_1_0_0_1_n_n_wf none x w p q

/-- Second layer's body: a 1000 × 512 block of rows times the 512 × 256 weights, at entry (p, q). -/
theorem body1_entry (x : Vec Ideal S1000x512 .f32) (w : Vec Ideal S512x256 .f32) (p : Fin 1000) (q : Fin 256) :
    k1_pay1 (F := Ideal) x w (ix2 p q) = ∑ k : Fin 512, (x (ix2 p k) : EReal) * (w (ix2 k q) : EReal) := by
  unfold k1_pay1
  rw [shapeCast_self]
  exact Cert.LibContractPlain.matmulPlain_zero_apply 1000 512 256
    dot_S1000x512_S512x256_S1000x256_1_0_0_1_n_n_wf none x w p q

end Cert.KernelIdeal.MatEntry

end
-- ==== Proof.RegionArrays.lean ====
/-
  Each matrix-product region's output array, after the region, as one function of the arrays the region found.

  A region runs its body at ten grid points. Point t stages rows 1000 t … 1000 t + 999 of the left operand and the
  whole right operand, and writes back rows 1000 t … 1000 t + 999 of the output. The body leaves in the output block
  the product of the staged blocks, so entry (p, q) of block t is the sum over k of left (1000 t + p, k) · right (k, q):
  entry (1000 t + p, q) of the product of the whole arrays. The ten blocks tile the output, so after the region the
  output array is that whole product. Everything is stated at the contents `V` the region is entered with, whatever
  they are, so that the same facts serve both regions of the run.
-/
import proofs.«161514_j31190052503646_1_alg».proof.Proof.Gen.KernelIdeal.Frame
import proofs.«161514_j31190052503646_1_alg».proof.Proof.MatmulEntry
import Idealize.ShloMosaic.Lib.Pipeline.Value
import Idealize.ShloMosaic.Lib.ValueIdx
import Idealize.ShloMosaic.Lib.Tactic

set_option maxRecDepth 16384

noncomputable section

open scoped BigOperators

namespace Cert.KernelIdeal.RegionVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first body's stored value at an index `y` of its 1000 × 512 block. -/
theorem body0_at (x : Vec Ideal S1000x256 .f32) (w : Vec Ideal S256x512 .f32) (y : S1000x512.Idx) :
    k0_pay1 (F := Ideal) x w y = ∑ k : Fin 256, (x (ix2 (y 0) k) : EReal) * (w (ix2 k (y 1)) : EReal) := by
  exact (congrArg (k0_pay1 (F := Ideal) x w) (eq_ix2 y)).trans (Cert.KernelIdeal.MatEntry.body0_entry x w (y 0) (y 1))

/-- The second body's stored value at an index `y` of its 1000 × 256 block. -/
theorem body1_at (x : Vec Ideal S1000x512 .f32) (w : Vec Ideal S512x256 .f32) (y : S1000x256.Idx) :
    k1_pay1 (F := Ideal) x w y = ∑ k : Fin 512, (x (ix2 (y 0) k) : EReal) * (w (ix2 k (y 1)) : EReal) := by
  exact (congrArg (k1_pay1 (F := Ideal) x w) (eq_ix2 y)).trans (Cert.KernelIdeal.MatEntry.body1_entry x w (y 0) (y 1))

/-! ## Region 0: rows of `main_arg0` times `main_arg2` -/

/-- The whole product: entry `i` is the sum over the contracted coordinate `k` of left (row of `i`, `k`) times
    right (`k`, column of `i`). -/
def prod0 (x : S10000x256.Idx → EReal) (w : S256x512.Idx → EReal) : S10000x512.Idx → EReal :=
  fun i => ∑ k : Fin 256, x (ix2 (i 0) k) * w (ix2 k (i 1))

/-- The printed index maps over the ten grid points: point `t` takes block `t` of the rows on both the left operand
    and the output, column block 0 everywhere, and the one block of the weights. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `1000 t … 1000 t + 999` of its array. -/
theorem left0_apply (c : Dev nD) (t : Fin cfg0.N) (y : S1000x256.Idx) (i : S10000x256.Idx)
    (h0 : (i 0).val = 1000 * t.val + (y 0).val) (h1 : (i 1).val = (y 1).val) :
    (iblk0 V c 0 t : Vec Ideal S1000x256 .f32) y = (V c main_arg0 : S10000x256.Idx → Elt Ideal .f32) i := by
  obtain ⟨e00, e01, -⟩ := idx0 t
  unfold iblk0
  rw [View.read_apply]
  show V c main_arg0 _ = V c main_arg0 _
  refine congrArg _ ?_
  funext a
  apply Fin.ext
  match a with
  | ⟨0, _⟩ => show win0_0.index t 0 * 1000 + 1 * (y 0).val = (i 0).val; rw [e00, h0]; omega
  | ⟨1, _⟩ => show win0_0.index t 1 * 256 + 1 * (y 1).val = (i 1).val; rw [e01, h1]; omega

/-- The weights' block at every point is the whole array. -/
theorem right0_apply (c : Dev nD) (t : Fin cfg0.N) (y : S256x512.Idx) :
    (iblk0 V c 1 t : Vec Ideal S256x512 .f32) y = (V c main_arg2 : S256x512.Idx → Elt Ideal .f32) y := by
  obtain ⟨-, -, e10, e11, -⟩ := idx0 t
  unfold iblk0
  rw [View.read_apply]
  show V c main_arg2 _ = V c main_arg2 _
  refine congrArg _ ?_
  funext a
  apply Fin.ext
  match a with
  | ⟨0, _⟩ => show win0_1.index t 0 * 256 + 1 * (y 0).val = (y 0).val; rw [e10]; omega
  | ⟨1, _⟩ => show win0_1.index t 1 * 512 + 1 * (y 1).val = (y 1).val; rw [e11]; omega

/-- What point `t` leaves in the output's staging buffer: entry `y` is entry (1000 t + row of `y`, column of `y`)
    of the whole product. -/
theorem out0_apply (c : Dev nD) (t : Fin cfg0.N) (y : S1000x512.Idx) (i : S10000x512.Idx)
    (h0 : (i 0).val = 1000 * t.val + (y 0).val) (h1 : (i 1).val = (y 1).val) :
    out0_2 (F := Ideal) (iblk0 V c 0 t) (iblk0 V c 1 t) y = prod0 (V c main_arg0) (V c main_arg2) i := by
  unfold out0_2
  rw [View.canon_unit_zero hz]
  simp only [View.ld_unit_zero (S := S1000x256) hz, View.ld_unit_zero (S := S256x512) hz]
  refine (body0_at _ _ y).trans ?_
  unfold prod0
  refine Finset.sum_congr rfl fun k _ => ?_
  have hcol : (ix2 k (y 1) : S256x512.Idx) = ix2 k (i 1) := by
    funext a
    apply Fin.ext
    match a with
    | ⟨0, _⟩ => rfl
    | ⟨1, _⟩ => exact h1.symm
  rw [left0_apply V c t (ix2 (y 0) k) (ix2 (i 0) k) h0 rfl, right0_apply V c t (ix2 k (y 1)), hcol]
  rfl

/-- WHAT POINT `t` WRITES BACK is block `t` of the whole product. -/
theorem flushed0 (c : Dev nD) (t : Fin cfg0.N) :
    (dat0 V c).flushed 2 t
      = ((cfg0.win 2).blk t).view.read (Elt Ideal) (prod0 (V c main_arg0) (V c main_arg2)) := by
  obtain ⟨-, -, -, -, e20, e21⟩ := idx0 t
  show (cfg0.win 2).cut (grid0.coords t) ((dat0 V c).after 2 t) = _
  rw [after0_2]
  funext j
  show out0_2 (F := Ideal) (iblk0 V c 0 t) (iblk0 V c 1 t) j = prod0 (V c main_arg0) (V c main_arg2) (((cfg0.win 2).blk t).view.emb j)
  refine out0_apply V c t j _ ?_ ?_
  · show win0_2.index t 0 * 1000 + 1 * (j 0).val = 1000 * t.val + (j 0).val; rw [e20]; omega
  · show win0_2.index t 1 * 512 + 1 * (j 1).val = (j 1).val; rw [e21]; omega

/-- The ten blocks of rows tile the output: row `r` lies in block `r / 1000`. So after the region the output array
    holds the whole product of the arrays the region found. -/
theorem final0 (c : Dev nD) :
    (dat0 V c).arrAt 2 cfg0.N = prod0 (V c main_arg0) (V c main_arg2) :=
  (dat0 V c).arrAt_eq_of_cover 2 (prod0 (V c main_arg0) (V c main_arg2)) (fun t _ => flushed0 V c t) fun i => by
    have hN : grid0.N = 10 := N_0
    have h0 : (i 0 : Nat) < 10000 := (i 0).isLt
    have h1 : (i 1 : Nat) < 512 := (i 1).isLt
    have ht : (i 0 : Nat) / 1000 < cfg0.N := by show _ < grid0.N; rw [hN]; omega
    obtain ⟨-, -, -, -, e20, e21⟩ := idx0 ⟨(i 0 : Nat) / 1000, ht⟩
    refine ⟨⟨(i 0 : Nat) / 1000, ht⟩, flush0_2 _, ?_⟩
    show i ∈ ((View.whole main_v4).slice (win0_2.rect ⟨(i 0 : Nat) / 1000, ht⟩)).set
    rw [View.set_slice_whole, Rect.mem_set_unit]
    intro a
    match a with
    | ⟨0, _⟩ =>
      show win0_2.index ⟨(i 0 : Nat) / 1000, ht⟩ 0 * 1000 ≤ (i 0 : Nat) ∧ (i 0 : Nat) < win0_2.index ⟨(i 0 : Nat) / 1000, ht⟩ 0 * 1000 + 1000
      rw [e20]; show (i 0 : Nat) / 1000 * 1000 ≤ (i 0 : Nat) ∧ (i 0 : Nat) < (i 0 : Nat) / 1000 * 1000 + 1000; omega
    | ⟨1, _⟩ =>
      show win0_2.index ⟨(i 0 : Nat) / 1000, ht⟩ 1 * 512 ≤ (i 1 : Nat) ∧ (i 1 : Nat) < win0_2.index ⟨(i 0 : Nat) / 1000, ht⟩ 1 * 512 + 512
      rw [e21]; omega

/-! ## Region 1: rows of `main_v53` times `main_arg4` -/

/-- The whole product: entry `i` is the sum over the contracted coordinate `k` of left (row of `i`, `k`) times
    right (`k`, column of `i`). -/
def prod1 (x : S10000x512.Idx → EReal) (w : S512x256.Idx → EReal) : S10000x256.Idx → EReal :=
  fun i => ∑ k : Fin 512, x (ix2 (i 0) k) * w (ix2 k (i 1))

/-- The printed index maps over the ten grid points: point `t` takes block `t` of the rows on both the left operand
    and the output, column block 0 everywhere, and the one block of the weights. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `1000 t … 1000 t + 999` of its array. -/
theorem left1_apply (c : Dev nD) (t : Fin cfg1.N) (y : S1000x512.Idx) (i : S10000x512.Idx)
    (h0 : (i 0).val = 1000 * t.val + (y 0).val) (h1 : (i 1).val = (y 1).val) :
    (iblk1 V c 0 t : Vec Ideal S1000x512 .f32) y = (V c main_v53 : S10000x512.Idx → Elt Ideal .f32) i := by
  obtain ⟨e00, e01, -⟩ := idx1 t
  unfold iblk1
  rw [View.read_apply]
  show V c main_v53 _ = V c main_v53 _
  refine congrArg _ ?_
  funext a
  apply Fin.ext
  match a with
  | ⟨0, _⟩ => show win1_0.index t 0 * 1000 + 1 * (y 0).val = (i 0).val; rw [e00, h0]; omega
  | ⟨1, _⟩ => show win1_0.index t 1 * 512 + 1 * (y 1).val = (i 1).val; rw [e01, h1]; omega

/-- The weights' block at every point is the whole array. -/
theorem right1_apply (c : Dev nD) (t : Fin cfg1.N) (y : S512x256.Idx) :
    (iblk1 V c 1 t : Vec Ideal S512x256 .f32) y = (V c main_arg4 : S512x256.Idx → Elt Ideal .f32) y := by
  obtain ⟨-, -, e10, e11, -⟩ := idx1 t
  unfold iblk1
  rw [View.read_apply]
  show V c main_arg4 _ = V c main_arg4 _
  refine congrArg _ ?_
  funext a
  apply Fin.ext
  match a with
  | ⟨0, _⟩ => show win1_1.index t 0 * 512 + 1 * (y 0).val = (y 0).val; rw [e10]; omega
  | ⟨1, _⟩ => show win1_1.index t 1 * 256 + 1 * (y 1).val = (y 1).val; rw [e11]; omega

/-- What point `t` leaves in the output's staging buffer: entry `y` is entry (1000 t + row of `y`, column of `y`)
    of the whole product. -/
theorem out1_apply (c : Dev nD) (t : Fin cfg1.N) (y : S1000x256.Idx) (i : S10000x256.Idx)
    (h0 : (i 0).val = 1000 * t.val + (y 0).val) (h1 : (i 1).val = (y 1).val) :
    out1_2 (F := Ideal) (iblk1 V c 0 t) (iblk1 V c 1 t) y = prod1 (V c main_v53) (V c main_arg4) i := by
  unfold out1_2
  rw [View.canon_unit_zero hz]
  simp only [View.ld_unit_zero (S := S1000x512) hz, View.ld_unit_zero (S := S512x256) hz]
  refine (body1_at _ _ y).trans ?_
  unfold prod1
  refine Finset.sum_congr rfl fun k _ => ?_
  have hcol : (ix2 k (y 1) : S512x256.Idx) = ix2 k (i 1) := by
    funext a
    apply Fin.ext
    match a with
    | ⟨0, _⟩ => rfl
    | ⟨1, _⟩ => exact h1.symm
  rw [left1_apply V c t (ix2 (y 0) k) (ix2 (i 0) k) h0 rfl, right1_apply V c t (ix2 k (y 1)), hcol]
  rfl

/-- WHAT POINT `t` WRITES BACK is block `t` of the whole product. -/
theorem flushed1 (c : Dev nD) (t : Fin cfg1.N) :
    (dat1 V c).flushed 2 t
      = ((cfg1.win 2).blk t).view.read (Elt Ideal) (prod1 (V c main_v53) (V c main_arg4)) := by
  obtain ⟨-, -, -, -, e20, e21⟩ := idx1 t
  show (cfg1.win 2).cut (grid1.coords t) ((dat1 V c).after 2 t) = _
  rw [after1_2]
  funext j
  show out1_2 (F := Ideal) (iblk1 V c 0 t) (iblk1 V c 1 t) j = prod1 (V c main_v53) (V c main_arg4) (((cfg1.win 2).blk t).view.emb j)
  refine out1_apply V c t j _ ?_ ?_
  · show win1_2.index t 0 * 1000 + 1 * (j 0).val = 1000 * t.val + (j 0).val; rw [e20]; omega
  · show win1_2.index t 1 * 256 + 1 * (j 1).val = (j 1).val; rw [e21]; omega

/-- The ten blocks of rows tile the output: row `r` lies in block `r / 1000`. So after the region the output array
    holds the whole product of the arrays the region found. -/
theorem final1 (c : Dev nD) :
    (dat1 V c).arrAt 2 cfg1.N = prod1 (V c main_v53) (V c main_arg4) :=
  (dat1 V c).arrAt_eq_of_cover 2 (prod1 (V c main_v53) (V c main_arg4)) (fun t _ => flushed1 V c t) fun i => by
    have hN : grid1.N = 10 := N_1
    have h0 : (i 0 : Nat) < 10000 := (i 0).isLt
    have h1 : (i 1 : Nat) < 256 := (i 1).isLt
    have ht : (i 0 : Nat) / 1000 < cfg1.N := by show _ < grid1.N; rw [hN]; omega
    obtain ⟨-, -, -, -, e20, e21⟩ := idx1 ⟨(i 0 : Nat) / 1000, ht⟩
    refine ⟨⟨(i 0 : Nat) / 1000, ht⟩, flush1_2 _, ?_⟩
    show i ∈ ((View.whole main_v54).slice (win1_2.rect ⟨(i 0 : Nat) / 1000, ht⟩)).set
    rw [View.set_slice_whole, Rect.mem_set_unit]
    intro a
    match a with
    | ⟨0, _⟩ =>
      show win1_2.index ⟨(i 0 : Nat) / 1000, ht⟩ 0 * 1000 ≤ (i 0 : Nat) ∧ (i 0 : Nat) < win1_2.index ⟨(i 0 : Nat) / 1000, ht⟩ 0 * 1000 + 1000
      rw [e20]; show (i 0 : Nat) / 1000 * 1000 ≤ (i 0 : Nat) ∧ (i 0 : Nat) < (i 0 : Nat) / 1000 * 1000 + 1000; omega
    | ⟨1, _⟩ =>
      show win1_2.index ⟨(i 0 : Nat) / 1000, ht⟩ 1 * 256 ≤ (i 1 : Nat) ∧ (i 1 : Nat) < win1_2.index ⟨(i 0 : Nat) / 1000, ht⟩ 1 * 256 + 256
      rw [e21]; omega

end Cert.KernelIdeal.RegionVal

end
-- ==== Proof.ProductIsDot.lean ====
/-
  A region's whole product is the host's matrix product.

  The region's output array holds, at entry i, the sum over the contracted coordinate k of left (row of i, k) times
  right (k, column of i). Over the extended reals the reference's matrix product on the host is the same sum, its
  left and right indices being (row of i, k) and (k, column of i) spelled axis by axis. So the two arrays are equal,
  for the first layer on any operands and for the second layer when the left operand is the reference's first-layer
  output.
-/
import proofs.«161514_j31190052503646_1_alg».proof.Proof.Gen.ReferenceIdeal.Read
import proofs.«161514_j31190052503646_1_alg».proof.Proof.RegionArrays
import Idealize.ShloMosaic.Lib.ValueIdx

set_option maxRecDepth 16384

noncomputable section

open scoped BigOperators

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.RegionVal

/-! ## The whole product is the host's matrix product -/

/-- First layer: rows of `x` times `w`, entry by entry the reference's `dot_general`. -/
theorem prod0_eq (x : (⟨S10000x256, .f32⟩ : BufTy).Contents (Elt Ideal)) (w : (⟨S256x512, .f32⟩ : BufTy).Contents (Elt Ideal)) :
    prod0 x w = Cert.ReferenceIdeal.Read.val_main_v4 (F := Ideal) x w := by
  funext i
  rw [Cert.ReferenceIdeal.Read.val_main_v4_apply]
  unfold prod0
  refine Finset.sum_congr rfl fun k _ => ?_
  have hl : (ix2 (i 0) k : S10000x256.Idx) = Cert.ReferenceIdeal.Read.lidx_main_v4 i k :=
    funext fun a => by match a with | ⟨0, _⟩ => rfl | ⟨1, _⟩ => rfl
  have hr : (ix2 k (i 1) : S256x512.Idx) = Cert.ReferenceIdeal.Read.ridx_main_v4 i k :=
    funext fun a => by match a with | ⟨0, _⟩ => rfl | ⟨1, _⟩ => rfl
  exact (congrArg (fun u => x u * w (ix2 k (i 1))) hl).trans (congrArg (fun u => x (Cert.ReferenceIdeal.Read.lidx_main_v4 i k) * w u) hr)

/-- Second layer: rows of the first layer's output `h` times `w`, entry by entry the reference's `dot_general`
    when `h` is the reference's first-layer output. -/
theorem prod1_eq (x0 : (⟨S10000x256, .f32⟩ : BufTy).Contents (Elt Ideal)) (x1 : (⟨S2x320000, .i32⟩ : BufTy).Contents (Elt Ideal))
    (x2 : (⟨S256x512, .f32⟩ : BufTy).Contents (Elt Ideal)) (x3 : (⟨S512, .f32⟩ : BufTy).Contents (Elt Ideal))
    (x4 : (⟨S512x256, .f32⟩ : BufTy).Contents (Elt Ideal)) :
    prod1 (Cert.ReferenceIdeal.Read.val_main_v53 (F := Ideal) x0 x1 x2 x3) x4 = Cert.ReferenceIdeal.Read.val_main_v54 (F := Ideal) x0 x1 x2 x3 x4 := by
  funext i
  rw [Cert.ReferenceIdeal.Read.val_main_v54_apply]
  unfold prod1
  refine Finset.sum_congr rfl fun k _ => ?_
  have hl : (ix2 (i 0) k : S10000x512.Idx) = Cert.ReferenceIdeal.Read.lidx_main_v54 i k :=
    funext fun a => by match a with | ⟨0, _⟩ => rfl | ⟨1, _⟩ => rfl
  have hr : (ix2 k (i 1) : S512x256.Idx) = Cert.ReferenceIdeal.Read.ridx_main_v54 i k :=
    funext fun a => by match a with | ⟨0, _⟩ => rfl | ⟨1, _⟩ => rfl
  exact (congrArg (fun u => Cert.ReferenceIdeal.Read.val_main_v53 (F := Ideal) x0 x1 x2 x3 u * x4 (ix2 k (i 1))) hl).trans
    (congrArg (fun u => Cert.ReferenceIdeal.Read.val_main_v53 (F := Ideal) x0 x1 x2 x3 (Cert.ReferenceIdeal.Read.lidx_main_v54 i k) * x4 u) hr)

end Cert.Bridge

end
-- ==== Proof.StagesEntry.lean ====
/-
  The idealized kernel program's buffers up to the first region's exit are the reference's stages.

  Before the first region the program slices the edge list into its source and destination rows; no other buffer a
  later segment reads is written, so each argument reads back as launched. The first region's output array is the whole
  product of the node features and the first weights as launched, which is the reference's first matrix product; the
  region leaves every other buffer as it found it.
-/
import proofs.«161514_j31190052503646_1_alg».proof.Proof.Gen.KernelIdeal.Frame
import proofs.«161514_j31190052503646_1_alg».proof.Proof.Gen.ReferenceIdeal.Read
import proofs.«161514_j31190052503646_1_alg».proof.Proof.RegionArrays
import proofs.«161514_j31190052503646_1_alg».proof.Proof.ProductIsDot
import Idealize.ShloMosaic.Lib.StableHlo.Run

set_option maxRecDepth 16384

noncomputable section

open scoped BigOperators

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.RegionVal

variable (m : (ℓ : Loc nD τ sig) → Buf (Elt Ideal) ℓ) (ρ : Dev nD → PrngReg) (c : Dev nD)

/-! ## After the edge list's two slices (the first region's entry) -/

theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  dsimp only [hostOps0]
  after_results
  rfl
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  dsimp only [hostOps0]
  after_results
  rfl
theorem W1_arg0 : W1 m ρ c (Proc.devRef .tc main_arg0) = (m ((c.tc : Thread nD τ).loc main_arg0)) := by
  show StableHlo.after hostOps0 (W0 m ρ c) (Proc.devRef .tc main_arg0) = _
  dsimp only [hostOps0]
  after_results
theorem W1_arg2 : W1 m ρ c (Proc.devRef .tc main_arg2) = (m ((c.tc : Thread nD τ).loc main_arg2)) := by
  show StableHlo.after hostOps0 (W0 m ρ c) (Proc.devRef .tc main_arg2) = _
  dsimp only [hostOps0]
  after_results
theorem W1_arg3 : W1 m ρ c (Proc.devRef .tc main_arg3) = (m ((c.tc : Thread nD τ).loc main_arg3)) := by
  show StableHlo.after hostOps0 (W0 m ρ c) (Proc.devRef .tc main_arg3) = _
  dsimp only [hostOps0]
  after_results
theorem W1_arg4 : W1 m ρ c (Proc.devRef .tc main_arg4) = (m ((c.tc : Thread nD τ).loc main_arg4)) := by
  show StableHlo.after hostOps0 (W0 m ρ c) (Proc.devRef .tc main_arg4) = _
  dsimp only [hostOps0]
  after_results
theorem W1_arg5 : W1 m ρ c (Proc.devRef .tc main_arg5) = (m ((c.tc : Thread nD τ).loc main_arg5)) := by
  show StableHlo.after hostOps0 (W0 m ρ c) (Proc.devRef .tc main_arg5) = _
  dsimp only [hostOps0]
  after_results

/-! ## After the first region -/

/-- The first region's output array is the reference's first matrix product. -/
theorem W2_v4 : W2 m ρ c (Proc.devRef .tc main_v4) = Cert.ReferenceIdeal.Read.val_main_v4 (F := Ideal) (m ((c.tc : Thread nD τ).loc main_arg0)) (m ((c.tc : Thread nD τ).loc main_arg2)) := by
  refine (W2_arr m ρ c 2).trans ((final0 (V1 m ρ) c).trans ?_)
  exact (congrArg₂ prod0 (W1_arg0 m ρ c) (W1_arg2 m ρ c)).trans (prod0_eq _ _)
theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)

end Cert.Bridge

end
-- ==== Proof.LibTypedRefCasts.lean ====
/-
  Contents seen through a typed reference.

  A typed reference pairs a buffer with a proof that the buffer's type is a given tensor type T; contents at type T are
  moved to the buffer's own type, and back, by a cast along that proof. Casts compose and a cast is heterogeneously
  the identity, so: moving to the buffer and back, or back and forth, changes nothing, whatever the reference; and a
  single move is heterogeneously the identity — hence an equation wherever the buffer's type and T coincide, as they do
  at a literal reference. Used as rewriting steps these remove the moves from a term without evaluating any cast.
-/
import Idealize.ShloMosaic.Lib.StableHlo

noncomputable section

namespace Cert.LibTypedRefCasts

open Idealize.ShloMosaic Idealize.ShloMosaic.StableHlo

variable {sig : RefSig} {T : BufTy} {Val : EltTy → Type}

/-- Contents moved to a typed reference's buffer and read back at the value's type are the contents. -/
theorem ofBuf_toBuf (x : TRef sig T) (v : T.Contents Val) : x.ofBuf (x.toBuf v) = v := by
  obtain ⟨r, h, _, _⟩ := x
  subst h
  rfl

/-- A buffer's contents read at the value's type and moved back to the buffer are the contents. -/
theorem toBuf_ofBuf (x : TRef sig T) (u : x.ref.ty.Contents Val) : x.toBuf (x.ofBuf u) = u := by
  obtain ⟨r, h, _, _⟩ := x
  subst h
  rfl

/-- Contents moved to a typed reference's buffer are, heterogeneously, the contents. -/
theorem toBuf_heq (x : TRef sig T) (v : T.Contents Val) : HEq (x.toBuf v) v := cast_heq _ _

/-- A typed reference's buffer contents read at the value's type are, heterogeneously, the contents. -/
theorem ofBuf_heq (x : TRef sig T) (u : x.ref.ty.Contents Val) : HEq (x.ofBuf u) u := cast_heq _ _

end Cert.LibTypedRefCasts

end
-- ==== Proof.StagesLayer1.lean ====
/-
  Between the two regions: the first layer's aggregation, bias and rectifier.

  From the first region's exit the program counts the in-degrees along the destination row of the edge list and forms
  d = (deg + 1)^(-1/2); gathers d at both ends of every edge and multiplies (the edge weight); gathers the product's rows
  at the sources, scales each by its edge weight and adds them up at the destinations; adds the product's own rows scaled
  by d²; adds the bias; and applies the rectifier. These are the reference's operations, in its order, on buffers that hold
  the reference's values (the product, the two rows of the edge list, the bias), so the rectifier's output is the
  reference's first-layer output. The rectifier is an outlined function: its three operations see their buffers through
  typed references, and those moves are removed by the cast lemmas before the two sides are compared. No operation of the
  stretch writes the edge rows or the second layer's weights and bias.
-/
import proofs.«161514_j31190052503646_1_alg».proof.Proof.StagesEntry
import proofs.«161514_j31190052503646_1_alg».proof.Proof.LibTypedRefCasts
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.RegionVal Cert.LibTypedRefCasts

variable (m : (ℓ : Loc nD τ sig) → Buf (Elt Ideal) ℓ) (ρ : Dev nD → PrngReg) (c : Dev nD)

/-- The second region's left operand is the reference's first-layer output. -/
theorem W4_v53 : W4 m ρ c (Proc.devRef .tc main_v53) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1_1 (StableHlo.after hostOps1 (W2 m ρ c)) (Proc.devRef .tc main_v53) = _
  dsimp only [hostOps1_1, hostOps1]
  after_results_simp
  rw [W2_v4 m ρ c, W2_v1 m ρ c, W2_v3 m ρ c, W2_arg3 m ρ c]
  simp only [ofBuf_toBuf]
  refine (eq_of_heq (toBuf_heq _ _)).trans ?_
  refine (congrArg (fun u => maximumf u _) (eq_of_heq (ofBuf_heq _ _))).trans ?_
  rfl

/-- No operation between the two regions writes `main_v1`. -/
theorem W4_v1 : W4 m ρ c (Proc.devRef .tc main_v1) = Cert.ReferenceIdeal.Read.val_main_v1 (F := Ideal) (m ((c.tc : Thread nD τ).loc main_arg1)) :=
  calc W4 m ρ c (Proc.devRef .tc main_v1)
    _ = W3 m ρ c (Proc.devRef .tc main_v1) := StableHlo.after_of_forall_not_mem _ _ (List.forall_iff_forall_mem.mp (by
      simp only [hostOps1_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_v1) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = Cert.ReferenceIdeal.Read.val_main_v1 (F := Ideal) (m ((c.tc : Thread nD τ).loc main_arg1)) := W2_v1 m ρ c
/-- No operation between the two regions writes `main_v3`. -/
theorem W4_v3 : W4 m ρ c (Proc.devRef .tc main_v3) = Cert.ReferenceIdeal.Read.val_main_v3 (F := Ideal) (m ((c.tc : Thread nD τ).loc main_arg1)) :=
  calc W4 m ρ c (Proc.devRef .tc main_v3)
    _ = W3 m ρ c (Proc.devRef .tc main_v3) := StableHlo.after_of_forall_not_mem _ _ (List.forall_iff_forall_mem.mp (by
      simp only [hostOps1_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_v3) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = Cert.ReferenceIdeal.Read.val_main_v3 (F := Ideal) (m ((c.tc : Thread nD τ).loc main_arg1)) := W2_v3 m ρ c
/-- No operation between the two regions writes `main_arg4`. -/
theorem W4_arg4 : W4 m ρ c (Proc.devRef .tc main_arg4) = (m ((c.tc : Thread nD τ).loc main_arg4)) :=
  calc W4 m ρ c (Proc.devRef .tc main_arg4)
    _ = W3 m ρ c (Proc.devRef .tc main_arg4) := StableHlo.after_of_forall_not_mem _ _ (List.forall_iff_forall_mem.mp (by
      simp only [hostOps1_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_arg4) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = (m ((c.tc : Thread nD τ).loc main_arg4)) := W2_arg4 m ρ c
/-- No operation between the two regions writes `main_arg5`. -/
theorem W4_arg5 : W4 m ρ c (Proc.devRef .tc main_arg5) = (m ((c.tc : Thread nD τ).loc main_arg5)) :=
  calc W4 m ρ c (Proc.devRef .tc main_arg5)
    _ = W3 m ρ c (Proc.devRef .tc main_arg5) := StableHlo.after_of_forall_not_mem _ _ (List.forall_iff_forall_mem.mp (by
      simp only [hostOps1_1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W2 m ρ c (Proc.devRef .tc main_arg5) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = (m ((c.tc : Thread nD τ).loc main_arg5)) := W2_arg5 m ρ c

end Cert.Bridge

end
-- ==== Proof.StagesLayer2.lean ====
/-
  From the second region to the result.

  The second region's output array is the whole product of the first layer's output and the second weights: the
  reference's second matrix product. The second layer's aggregation, bias and rectifier are the first layer's, on 256
  columns, and give the reference's second-layer output; the result is the maximum of each of its columns over the nodes,
  as one row. The stretch is cut after the rectifier, whose typed-reference moves are removed by the cast lemmas; the
  column maximum and the final reshaping then read the rectifier's output as one value.
-/
import proofs.«161514_j31190052503646_1_alg».proof.Proof.StagesLayer1
import proofs.«161514_j31190052503646_1_alg».proof.Proof.LibTypedRefCasts
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KernelIdeal.RegionVal Cert.LibTypedRefCasts

variable (m : (ℓ : Loc nD τ sig) → Buf (Elt Ideal) ℓ) (ρ : Dev nD → PrngReg) (c : Dev nD)

/-- The second region's output array is the reference's second matrix product. -/
theorem W5_v54 : W5 m ρ c (Proc.devRef .tc main_v54) = Cert.ReferenceIdeal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((final1 (V4 m ρ) c).trans ?_)
  exact (congrArg₂ prod1 (W4_v53 m ρ c) (W4_arg4 m ρ c)).trans (prod1_eq _ _ _ _ _)
theorem W5_v1 : W5 m ρ c (Proc.devRef .tc main_v1) = Cert.ReferenceIdeal.Read.val_main_v1 (F := Ideal) (m ((c.tc : Thread nD τ).loc main_arg1)) :=
  (W5_of_ne m ρ c main_v1 (by decide)).trans (W4_v1 m ρ c)
theorem W5_v3 : W5 m ρ c (Proc.devRef .tc main_v3) = Cert.ReferenceIdeal.Read.val_main_v3 (F := Ideal) (m ((c.tc : Thread nD τ).loc main_arg1)) :=
  (W5_of_ne m ρ c main_v3 (by decide)).trans (W4_v3 m ρ c)
theorem W5_arg5 : W5 m ρ c (Proc.devRef .tc main_arg5) = (m ((c.tc : Thread nD τ).loc main_arg5)) :=
  (W5_of_ne m ρ c main_arg5 (by decide)).trans (W4_arg5 m ρ c)

/-- The second layer's rectifier output is the reference's second-layer output. -/
theorem W7_v103 : W7 m ρ c (Proc.devRef .tc main_v103) = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2_1 (StableHlo.after hostOps2 (W5 m ρ c)) (Proc.devRef .tc main_v103) = _
  dsimp only [hostOps2_1, hostOps2]
  after_results_simp
  rw [W5_v54 m ρ c, W5_v1 m ρ c, W5_v3 m ρ c, W5_arg5 m ρ c]
  simp only [ofBuf_toBuf]
  refine (eq_of_heq (toBuf_heq _ _)).trans ?_
  refine (congrArg (fun u => maximumf u _) (eq_of_heq (ofBuf_heq _ _))).trans ?_
  rfl

/-- THE RESULT BUFFER at the last boundary is the reference's result, as a function of the six launch arguments: the
    column maxima of the second layer's output, as one row. -/
theorem W8_v105 : W8 m ρ c (Proc.devRef .tc main_v105) = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2_2 (W7 m ρ c) (Proc.devRef .tc main_v105) = _
  have h := W7_v103 m ρ c
  generalize W7 m ρ c = V7 at h ⊢
  dsimp only [hostOps2_2]
  after_results
  rw [h]
  rfl

end Cert.Bridge

end
-- ==== Proof.lean ====
/-
  Two stacked graph-convolution layers followed by a column maximum: the kernel program against its reference.

  A layer takes node features h, multiplies them by a weight matrix, and aggregates along the edge list: with
  deg the in-degree plus one and d = deg^(-1/2), row v of the output is the sum over edges (u → v) of
  d_u · d_v · (h W)_u, plus d_v² · (h W)_v, plus the bias; a rectifier follows each layer and the result is the
  maximum of each column over the nodes. The two programs differ in one place per layer: the reference forms h W as
  one matrix product on the host, while the kernel program forms it in a region of ten grid points, point t
  producing rows 1000 t … 1000 t + 999 from the same rows of h and the whole of W, after rounding both operands to a
  narrower float format and accumulating into zero. Over the extended reals the rounding is the identity and the zero
  accumulator is neutral, so each block is the plain sum over the contracted coordinate, the ten blocks tile the
  output, and the region's array is the host's matrix product. Every other operation — the degree count, the
  gathers along the edges, the scatter-add, the bias, the rectifier, the column maximum — is the same operation on
  the same operands in both programs, so the results agree whatever the edge list and the (extended real) inputs are:
  no finiteness is used.

  The three frames: the two kernel programs' are the generated ones; the reference's is its generated run with the
  result forgotten. The idealized kernel program is the kernel program's own text read over the extended reals, no
  operation replaced, so the claim relating the two is trivial.
-/
import proofs.«161514_j31190052503646_1_alg».proof.Defs
import proofs.«161514_j31190052503646_1_alg».proof.Proof.Gen.Kernel
import proofs.«161514_j31190052503646_1_alg».proof.Proof.Gen.Kernel.Skeleton
import proofs.«161514_j31190052503646_1_alg».proof.Proof.Gen.Kernel.Launch
import proofs.«161514_j31190052503646_1_alg».proof.Proof.Gen.Kernel.Points
import proofs.«161514_j31190052503646_1_alg».proof.Proof.Gen.Kernel.Frame
import proofs.«161514_j31190052503646_1_alg».proof.Proof.Gen.KernelIdeal
import proofs.«161514_j31190052503646_1_alg».proof.Proof.Gen.KernelIdeal.Skeleton
import proofs.«161514_j31190052503646_1_alg».proof.Proof.Gen.KernelIdeal.Launch
import proofs.«161514_j31190052503646_1_alg».proof.Proof.Gen.KernelIdeal.Points
import proofs.«161514_j31190052503646_1_alg».proof.Proof.Gen.KernelIdeal.Frame
import proofs.«161514_j31190052503646_1_alg».proof.Proof.Gen.ReferenceIdeal
import proofs.«161514_j31190052503646_1_alg».proof.Proof.Gen.ReferenceIdeal.Run
import proofs.«161514_j31190052503646_1_alg».proof.Proof.Gen.ReferenceIdeal.Read
import proofs.«161514_j31190052503646_1_alg».proof.Proof.Gen.Pre_finite_inputs
import proofs.«161514_j31190052503646_1_alg».proof.Proof.KernelRun
import proofs.«161514_j31190052503646_1_alg».proof.Proof.StagesLayer2
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was replaced when the kernel program was read over the extended reals. -/
theorem preserves : Cert.preserves_Kernel_KernelIdeal := trivial

/-- Both programs end with the result buffer at the reference's last stage of the launch arguments: the kernel
    program because each of its boundaries holds the reference's stages (the regions' arrays being the host's matrix
    products), the reference by its own run; the arguments agree. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.W8_v105 m ρ c), (h c).2⟩) (Cert.KernelIdeal.Ran.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v105_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
